-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x128 : Shape := ⟨3, ![128, 512, 128]⟩
abbrev S512x128 : Shape := ⟨2, ![512, 128]⟩
abbrev S512 : Shape := ⟨1, ![512]⟩
abbrev S1536x512 : Shape := ⟨2, ![1536, 512]⟩
abbrev S1536 : Shape := ⟨1, ![1536]⟩
abbrev S_ : Shape := ⟨0, ![]⟩

class Facts : Prop where
  bcast_S_S128x512x128 : S_.BroadcastsInDim S128x512x128 (![] : Fin 0 → Fin S128x512x128.rank)
  reducesTo_S128x512x128_S_d0_1_2 : S128x512x128.ReducesTo [0, 1, 2] S_
  h_S_ : 0 < S_.numel
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_

variable [Facts]

def fn_part1 {F : FTy → Type} [FloatOps F] (main_arg4 : FVec F S1536 .f32) (main_arg5 : FVec F S1536 .f32) (main_v13 : IVec S_ 1) (main_v16 : IVec S1536x512 1) : IVec S_ 1 :=
  let main_c_5 : IVec S_ 1 := constantI S_ 1 1#1
  let main_v17 : IVec S_ 1 := (fun x v => Host.reduce IntOp.andi x v reducesTo_S1536x512_S_d0_1 h_S_) main_v16 main_c_5
  let main_v18 : IVec S_ 1 := andi main_v13 main_v17
  let main_v19 : FVec F S1536 .f32 := Host.absf main_arg4
  let main_cst_6 : FVec F S_ .f32 := constant S_ .f32 0x7F800000#32
  let main_v20 : FVec F S1536 .f32 := broadcastInDim S1536 ![] bcast_S_S1536 main_cst_6
  let main_v21 : IVec S1536 1 := cmpf .olt main_v19 main_v20
  let main_c_7 : IVec S_ 1 := constantI S_ 1 1#1
  let main_v22 : IVec S_ 1 := (fun x v => Host.reduce IntOp.andi x v reducesTo_S1536_S_d0 h_S_) main_v21 main_c_7
  let main_v23 : IVec S_ 1 := andi main_v18 main_v22
  let main_v24 : FVec F S1536 .f32 := Host.absf main_arg5
  let main_cst_8 : FVec F S_ .f32 := constant S_ .f32 0x7F800000#32
  let main_v25 : FVec F S1536 .f32 := broadcastInDim S1536 ![] bcast_S_S1536 main_cst_8
  let main_v26 : IVec S1536 1 := cmpf .olt main_v24 main_v25
  let main_c_9 : IVec S_ 1 := constantI S_ 1 1#1
  let main_v27 : IVec S_ 1 := (fun x v => Host.reduce IntOp.andi x v reducesTo_S1536_S_d0 h_S_) main_v26 main_c_9
  let main_v28 : IVec S_ 1 := andi main_v23 main_v27
  main_v28

def fn {F : FTy → Type} [FloatOps F] (main_arg0 : FVec F S128x512x128 .f32) (main_arg1 : FVec F S512x128 .f32) (main_arg2 : FVec F S512 .f32) (main_arg3 : FVec F S1536x512 .f32) (main_arg4 : FVec F S1536 .f32) (main_arg5 : FVec F S1536 .f32) : IVec S_ 1 :=
  let main_v0 : FVec F S128x512x128 .f32 := Host.absf main_arg0
  let main_cst : FVec F S_ .f32 := constant S_ .f32 0x7F800000#32
  let main_v1 : FVec F S128x512x128 .f32 := broadcastInDim S128x512x128 ![] bcast_S_S128x512x128 main_cst
  let main_v2 : IVec S128x512x128 1 := cmpf .olt main_v0 main_v1
  let main_c : IVec S_ 1 := constantI S_ 1 1#1
  let main_v3 : IVec S_ 1 := (fun x v => Host.reduce IntOp.andi x v reducesTo_S128x512x128_S_d0_1_2 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S1536x512 .f32 := Host.absf main_arg3
  let main_cst_4 : FVec F S_ .f32 := constant S_ .f32 0x7F800000#32
  let main_v15 : FVec F S1536x512 .f32 := broadcastInDim S1536x512 ![] bcast_S_S1536x512 main_cst_4
  let main_v16 : IVec S1536x512 1 := cmpf .olt main_v14 main_v15
  fn_part1 (F := F) main_arg4 main_arg5 main_v13 main_v16
-- ==== Kernel.lean ====
abbrev S128x512x128 : Shape := ⟨3, ![128, 512, 128]⟩
abbrev S512x128 : Shape := ⟨2, ![512, 128]⟩
abbrev S512 : Shape := ⟨1, ![512]⟩
abbrev S1536x512 : Shape := ⟨2, ![1536, 512]⟩
abbrev S1536 : Shape := ⟨1, ![1536]⟩
abbrev S128x512 : Shape := ⟨2, ![128, 512]⟩
abbrev S512x1536 : Shape := ⟨2, ![512, 1536]⟩
abbrev S1x512 : Shape := ⟨2, ![1, 512]⟩
abbrev S1x1536 : Shape := ⟨2, ![1, 1536]⟩
abbrev S65536x128 : Shape := ⟨2, ![65536, 128]⟩
abbrev S65536x512 : Shape := ⟨2, ![65536, 512]⟩
abbrev S1024x128 : Shape := ⟨2, ![1024, 128]⟩
abbrev S1024x512 : Shape := ⟨2, ![1024, 512]⟩
abbrev S1024x1536 : Shape := ⟨2, ![1024, 1536]⟩
abbrev S128x512x512 : Shape := ⟨3, ![128, 512, 512]⟩
abbrev S128x511x512 : Shape := ⟨3, ![128, 511, 512]⟩
abbrev S128x1x512 : Shape := ⟨3, ![128, 1, 512]⟩
abbrev S1x128x512 : Shape := ⟨3, ![1, 128, 512]⟩

abbrev nBuf : Space → Nat
  | .hbm => 18
  | .vmem => 9
  | .smem => 0
  | _ => 0

abbrev bufTy : (tb : Table) → Fin (tcTables nBuf tb) → BufTy
  | .hbm, ⟨0, _⟩ => ⟨S128x512x128, .f32⟩
  | .hbm, ⟨1, _⟩ => ⟨S512x128, .f32⟩
  | .hbm, ⟨2, _⟩ => ⟨S512, .f32⟩
  | .hbm, ⟨3, _⟩ => ⟨S1536x512, .f32⟩
  | .hbm, ⟨4, _⟩ => ⟨S1536, .f32⟩
  | .hbm, ⟨5, _⟩ => ⟨S1536, .f32⟩
  | .hbm, ⟨6, _⟩ => ⟨S128x512, .f32⟩
  | .hbm, ⟨7, _⟩ => ⟨S512x1536, .f32⟩
  | .hbm, ⟨8, _⟩ => ⟨S1x512, .f32⟩
  | .hbm, ⟨9, _⟩ => ⟨S1x1536, .f32⟩
  | .hbm, ⟨10, _⟩ => ⟨S1x1536, .f32⟩
  | .hbm, ⟨11, _⟩ => ⟨S65536x128, .f32⟩
  | .hbm, ⟨12, _⟩ => ⟨S65536x512, .f32⟩
  | .hbm, ⟨13, _⟩ => ⟨S128x512x512, .f32⟩
  | .hbm, ⟨14, _⟩ => ⟨S128x511x512, .f32⟩
  | .hbm, ⟨15, _⟩ => ⟨S128x1x512, .f32⟩
  | .hbm, ⟨16, _⟩ => ⟨S128x512, .f32⟩
  | .hbm, ⟨17, _⟩ => ⟨S1x128x512, .f32⟩
  | .local _ .vmem, ⟨0, _⟩ => ⟨S1024x128, .f32⟩
  | .local _ .vmem, ⟨1, _⟩ => ⟨S1024x128, .f32⟩
  | .local _ .vmem, ⟨2, _⟩ => ⟨S128x512, .f32⟩
  | .local _ .vmem, ⟨3, _⟩ => ⟨S1x512, .f32⟩
  | .local _ .vmem, ⟨4, _⟩ => ⟨S512x1536, .f32⟩
  | .local _ .vmem, ⟨5, _⟩ => ⟨S1x1536, .f32⟩
  | .local _ .vmem, ⟨6, _⟩ => ⟨S1x1536, .f32⟩
  | .local _ .vmem, ⟨7, _⟩ => ⟨S1024x512, .f32⟩
  | .local _ .vmem, ⟨8, _⟩ => ⟨S1024x512, .f32⟩
  | _, _ => ⟨S128x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S512x128_S128x512_1_0 : S512x128.Transposes [1, 0] S128x512
  transposes_S1536x512_S512x1536_1_0 : S1536x512.Transposes [1, 0] S512x1536
  shapeCasts_S512_S1x512 : S512.ShapeCasts S1x512
  shapeCasts_S1536_S1x1536 : S1536.ShapeCasts S1x1536
  shapeCasts_S128x512x128_S65536x128 : S128x512x128.ShapeCasts S65536x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1024x1536 : S1x1536.Broadcasts S1024x1536
  slices_S1024x1536_o0_0_S1024x512 : S1024x1536.Slices ![0, 0] S1024x512
  slices_S1024x1536_o0_512_S1024x512 : S1024x1536.Slices ![0, 512] S1024x512
  slices_S1024x1536_o0_1024_S1024x512 : S1024x1536.Slices ![0, 1024] S1024x512
  slices_S1x1536_o0_0_S1x512 : S1x1536.Slices ![0, 0] S1x512
  slices_S1x1536_o0_512_S1x512 : S1x1536.Slices ![0, 512] S1x512
  slices_S1x1536_o0_1024_S1x512 : S1x1536.Slices ![0, 1024] S1x512
  inb_S1024x512_S1024x512_0_0 : ∀ a, (![0, 0] : Fin 2 → Nat) a + S1024x512.size a ≤ S1024x512.size a
  h_S1024x512 : 0 < S1024x512.numel
  shapeCasts_S65536x512_S128x512x512 : S65536x512.ShapeCasts S128x512x512
  slices_S128x512x512_S128x511x512_0_0_0 : S128x512x512.Slices ![0, 0, 0] S128x511x512
  slices_S128x512x512_S128x1x512_0_511_0 : S128x512x512.Slices ![0, 511, 0] S128x1x512
  shapeCasts_S128x1x512_S128x512 : S128x1x512.ShapeCasts S128x512
  bcast_S128x512_S1x128x512_1_2 : S128x512.BroadcastsInDim S1x128x512 (![1, 2] : Fin 2 → Fin S1x128x512.rank)
  dot_S1024x128_S128x512_S1024x512_1_0_0_1_n_n_wf : DotDims.WF S1024x128 S128x512 S1024x512 [1] [0] [0] [1] [] []
  dot_S1024x512_S512x1536_S1024x1536_1_0_0_1_n_n_wf : DotDims.WF S1024x512 S512x1536 S1024x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S65536x128.size a
  hwx0_0 : ∀ i : grid0.Coords, EltTy.bits .f32 = 32 ∨ (Rect.block (s := S65536x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1536.size a ≤ S512x1536.size a
  hwx0_3 : ∀ i : grid0.Coords, EltTy.bits .f32 = 32 ∨ (Rect.block (s := S512x1536) S512x1536.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1536.size a ≤ S1x1536.size a
  hwx0_4 : ∀ i : grid0.Coords, EltTy.bits .f32 = 32 ∨ (Rect.block (s := S1x1536) S1x1536.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1536.size a ≤ S1x1536.size a
  hwx0_5 : ∀ i : grid0.Coords, EltTy.bits .f32 = 32 ∨ (Rect.block (s := S1x1536) S1x1536.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S65536x512.size a
  hwx0_6 : ∀ i : grid0.Coords, EltTy.bits .f32 = 32 ∨ (Rect.block (s := S65536x512) S1024x512.size (cc0_transform_6 i) (hinb0_6 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf

abbrev win0_0 : Pipeline.Window sig grid0 :=
  Pipeline.Window.ofSpec (Memref.whole main_v5) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1536.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S128x512x128 : Shape := ⟨3, ![128, 512, 128]⟩
abbrev S512x128 : Shape := ⟨2, ![512, 128]⟩
abbrev S512 : Shape := ⟨1, ![512]⟩
abbrev S1536x512 : Shape := ⟨2, ![1536, 512]⟩
abbrev S1536 : Shape := ⟨1, ![1536]⟩
abbrev S128x512x512 : Shape := ⟨3, ![128, 512, 512]⟩
abbrev S1x1x512 : Shape := ⟨3, ![1, 1, 512]⟩
abbrev S128x512x1536 : Shape := ⟨3, ![128, 512, 1536]⟩
abbrev S1x1x1536 : Shape := ⟨3, ![1, 1, 1536]⟩
abbrev S_ : Shape := ⟨0, ![]⟩
abbrev S128x511x512 : Shape := ⟨3, ![128, 511, 512]⟩
abbrev S128x1x512 : Shape := ⟨3, ![128, 1, 512]⟩
abbrev S128x512 : Shape := ⟨2, ![128, 512]⟩
abbrev S1x128x512 : Shape := ⟨3, ![1, 128, 512]⟩

abbrev nBuf : Space → Nat
  | .hbm => 55
  | .vmem => 0
  | .smem => 0
  | _ => 0

abbrev bufTy : (tb : Table) → Fin (tcTables nBuf tb) → BufTy
  | .hbm, ⟨0, _⟩ => ⟨S128x512x128, .f32⟩
  | .hbm, ⟨1, _⟩ => ⟨S512x128, .f32⟩
  | .hbm, ⟨2, _⟩ => ⟨S512, .f32⟩
  | .hbm, ⟨3, _⟩ => ⟨S1536x512, .f32⟩
  | .hbm, ⟨4, _⟩ => ⟨S1536, .f32⟩
  | .hbm, ⟨5, _⟩ => ⟨S1536, .f32⟩
  | .hbm, ⟨6, _⟩ => ⟨S128x512x512, .f32⟩
  | .hbm, ⟨7, _⟩ => ⟨S1x1x512, .f32⟩
  | .hbm, ⟨8, _⟩ => ⟨S128x512x512, .f32⟩
  | .hbm, ⟨9, _⟩ => ⟨S128x512x512, .f32⟩
  | .hbm, ⟨10, _⟩ => ⟨S128x512x1536, .f32⟩
  | .hbm, ⟨11, _⟩ => ⟨S1x1x1536, .f32⟩
  | .hbm, ⟨12, _⟩ => ⟨S128x512x1536, .f32⟩
  | .hbm, ⟨13, _⟩ => ⟨S128x512x1536, .f32⟩
  | .hbm, ⟨14, _⟩ => ⟨S128x512x512, .f32⟩
  | .hbm, ⟨15, _⟩ => ⟨S128x512x512, .f32⟩
  | .hbm, ⟨16, _⟩ => ⟨S128x512x512, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S1x1x512, .f32⟩
  | .hbm, ⟨21, _⟩ => ⟨S128x512x512, .f32⟩
  | .hbm, ⟨22, _⟩ => ⟨S128x512x512, .f32⟩
  | .hbm, ⟨23, _⟩ => ⟨S128x512x512, .f32⟩
  | .hbm, ⟨24, _⟩ => ⟨S128x512x512, .f32⟩
  | .hbm, ⟨25, _⟩ => ⟨S_, .f32⟩
  | .hbm, ⟨26, _⟩ => ⟨S128x512x512, .f32⟩
  | .hbm, ⟨27, _⟩ => ⟨S128x512x512, .f32⟩
  | .hbm, ⟨28, _⟩ => ⟨S_, .f32⟩
  | .hbm, ⟨29, _⟩ => ⟨S128x512x512, .f32⟩
  | .hbm, ⟨30, _⟩ => ⟨S128x512x512, .f32⟩
  | .hbm, ⟨31, _⟩ => ⟨S1x1x512, .f32⟩
  | .hbm, ⟨32, _⟩ => ⟨S128x512x512, .f32⟩
  | .hbm, ⟨33, _⟩ => ⟨S128x512x512, .f32⟩
  | .hbm, ⟨34, _⟩ => ⟨S128x512x512, .f32⟩
  | .hbm, ⟨35, _⟩ => ⟨S128x512x512, .f32⟩
  | .hbm, ⟨36, _⟩ => ⟨S_, .f32⟩
  | .hbm, ⟨37, _⟩ => ⟨S128x512x512, .f32⟩
  | .hbm, ⟨38, _⟩ => ⟨S128x512x512, .f32⟩
  | .hbm, ⟨39, _⟩ => ⟨S_, .f32⟩
  | .hbm, ⟨40, _⟩ => ⟨S128x512x512, .f32⟩
  | .hbm, ⟨41, _⟩ => ⟨S128x512x512, .f32⟩
  | .hbm, ⟨42, _⟩ => ⟨S1x1x512, .f32⟩
  | .hbm, ⟨43, _⟩ => ⟨S128x512x512, .f32⟩
  | .hbm, ⟨44, _⟩ => ⟨S128x512x512, .f32⟩
  | .hbm, ⟨45, _⟩ => ⟨S128x512x512, .f32⟩
  | .hbm, ⟨46, _⟩ => ⟨S128x512x512, .f32⟩
  | .hbm, ⟨47, _⟩ => ⟨S_, .f32⟩
  | .hbm, ⟨48, _⟩ => ⟨S128x512x512, .f32⟩
  | .hbm, ⟨49, _⟩ => ⟨S128x512x512, .f32⟩
  | .hbm, ⟨50, _⟩ => ⟨S128x512x512, .f32⟩
  | .hbm, ⟨51, _⟩ => ⟨S128x511x512, .f32⟩
  | .hbm, ⟨52, _⟩ => ⟨S128x1x512, .f32⟩
  | .hbm, ⟨53, _⟩ => ⟨S128x512, .f32⟩
  | .hbm, ⟨54, _⟩ => ⟨S1x128x512, .f32⟩
  | _, _ => ⟨S128x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S128x512x512_0_1_2 : S1x1x512.BroadcastsInDim S128x512x512 (![0, 1, 2] : Fin 3 → Fin S128x512x512.rank)
  bcast_S1536_S1x1x1536_2 : S1536.BroadcastsInDim S1x1x1536 (![2] : Fin 1 → Fin S1x1x1536.rank)
  bcast_S1x1x1536_S128x512x1536_0_1_2 : S1x1x1536.BroadcastsInDim S128x512x1536 (![0, 1, 2] : Fin 3 → Fin S128x512x1536.rank)
  slices_S128x512x1536_S128x512x512_0_0_0 : S128x512x1536.Slices ![0, 0, 0] S128x512x512
  slices_S128x512x1536_S128x512x512_0_0_512 : S128x512x1536.Slices ![0, 0, 512] S128x512x512
  slices_S128x512x1536_S128x512x512_0_0_1024 : S128x512x1536.Slices ![0, 0, 1024] S128x512x512
  slices_S1536_S512_0 : S1536.Slices ![0] S512
  slices_S1536_S512_512 : S1536.Slices ![512] S512
  slices_S1536_S512_1024 : S1536.Slices ![1024] S512
  bcast_S_S128x512x512 : S_.BroadcastsInDim S128x512x512 (![] : Fin 0 → Fin S128x512x512.rank)
  slices_S128x512x512_S128x511x512_0_0_0 : S128x512x512.Slices ![0, 0, 0] S128x511x512
  slices_S128x512x512_S128x1x512_0_511_0 : S128x512x512.Slices ![0, 511, 0] S128x1x512
  shapeCasts_S128x1x512_S128x512 : S128x1x512.ShapeCasts S128x512
  bcast_S128x512_S1x128x512_1_2 : S128x512.BroadcastsInDim S1x128x512 (![1, 2] : Fin 2 → Fin S1x128x512.rank)
  dot_S128x512x128_S512x128_S128x512x512_2_1_01_0_n_n_wf : DotDims.WF S128x512x128 S512x128 S128x512x512 [2] [1] [0, 1] [0] [] []
  dot_S128x512x512_S1536x512_S128x512x1536_2_1_01_0_n_n_wf : DotDims.WF S128x512x512 S1536x512 S128x512x1536 [2] [1] [0, 1] [0] [] []

variable [Facts₀]

def dot_S128x512x128_S512x128_S128x512x512_2_1_01_0_n_n : DotDims S128x512x128 S512x128 S128x512x512 where
  lhsContracting := [2]
  rhsContracting := [1]
  lhsNonContracting := [0, 1]
  rhsNonContracting := [0]
  lhsBatch := []
  rhsBatch := []
  wf := dot_S128x512x128_S512x128_S128x512x512_2_1_01_0_n_n_wf
def dot_S128x512x512_S1536x512_S128x512x1536_2_1_01_0_n_n : DotDims S128x512x512 S1536x512 S128x512x1536 where
  lhsContracting := [2]
  rhsContracting := [1]
  lhsNonContracting := [0, 1]
  rhsNonContracting := [0]
  lhsBatch := []
  rhsBatch := []
  wf := dot_S128x512x512_S1536x512_S128x512x1536_2_1_01_0_n_n_wf

class Facts : Prop extends Facts₀ where

variable [Facts]
-- ==== Proof.GruCell.lean ====
/-
  One entry of a gated recurrent step whose hidden state is zero, on the extended reals.

  For an input row `x` of 128 numbers the step first embeds it, `e h = Σ_k x k · w1 k h + b1 h` (512 numbers), then
  forms 1536 gate pre-activations `g j = Σ_h e h · w2 h j + b2 j`, read as three groups of 512 columns: reset (columns
  `c`), update (columns `512 + c`) and candidate (columns `1024 + c`).  With the recurrent bias `b3` (the only trace
  the zero hidden state leaves),
      r = σ(g c + b3 c),   z = σ(g (512 + c) + b3 (512 + c)),   n = tanh (g (1024 + c) + r · b3 (1024 + c)),
  and the new hidden entry is `(1 − z) · n`.  Here `σ t = 1 / (1 + e^(−t))` with the conventions of the extended
  reals at ±∞.  The weights are taken as functions of two coordinates, so that a program holding a weight matrix or its
  transpose both instantiate the same definition.

  Nothing here needs the inputs to be finite: the two programs this is used for compute the same sums of the same
  products in the same arrangement, entry by entry.
-/
import Idealize.ShloMosaic.PureOps.Ideal
import Idealize.ShloMosaic.Lib.ValueIdx

noncomputable section

namespace Cert.Gru

open Idealize.ShloMosaic
open scoped BigOperators

/-- Column `o + c` of the 1536 gate columns, for a group offset `o` that leaves room for 512 columns. -/
def col (o : ℕ) (ho : o + 512 ≤ 1536) (c : Fin 512) : Fin 1536 := ⟨o + c.val, by have := c.isLt; omega⟩

/-- The embedded row: entry `h` is the row's product with column `h` of `w1`, plus `b1 h`. -/
def emb (row : Fin 128 → EReal) (w1 : Fin 128 → Fin 512 → EReal) (b1 : Fin 512 → EReal) (h : Fin 512) : EReal :=
  (∑ k : Fin 128, row k * w1 k h) + b1 h

/-- The gate pre-activations: entry `j` is the embedded row's product with column `j` of `w2`, plus `b2 j`. -/
def pre (row : Fin 128 → EReal) (w1 : Fin 128 → Fin 512 → EReal) (b1 : Fin 512 → EReal)
    (w2 : Fin 512 → Fin 1536 → EReal) (b2 : Fin 1536 → EReal) (j : Fin 1536) : EReal :=
  (∑ h : Fin 512, emb row w1 b1 h * w2 h j) + b2 j

/-- The new hidden entry of column `c`: `(one − z) · n` with the reset, update and candidate gates read off the three
    groups of columns.  `one` is whatever the program writes for the number one. -/
def cell (one : EReal) (row : Fin 128 → EReal) (w1 : Fin 128 → Fin 512 → EReal) (b1 : Fin 512 → EReal)
    (w2 : Fin 512 → Fin 1536 → EReal) (b2 b3 : Fin 1536 → EReal) (c : Fin 512) : EReal :=
  (one - Ideal.logistic (pre row w1 b1 w2 b2 (col 512 (by omega) c) + b3 (col 512 (by omega) c)))
    * Ideal.tanh (pre row w1 b1 w2 b2 (col 1024 (by omega) c)
        + Ideal.logistic (pre row w1 b1 w2 b2 (col 0 (by omega) c) + b3 (col 0 (by omega) c)) * b3 (col 1024 (by omega) c))

/-- The hidden entry depends on the row, the weights, the biases and the column only through their values. -/
theorem cell_congr {one : EReal} {row row' : Fin 128 → EReal} {w1 w1' : Fin 128 → Fin 512 → EReal} {b1 b1' : Fin 512 → EReal}
    {w2 w2' : Fin 512 → Fin 1536 → EReal} {b2 b2' b3 b3' : Fin 1536 → EReal} {c c' : Fin 512}
    (hrow : row = row') (hw1 : w1 = w1') (hb1 : b1 = b1') (hw2 : w2 = w2') (hb2 : b2 = b2') (hb3 : b3 = b3') (hc : c = c') :
    cell one row w1 b1 w2 b2 b3 c = cell one row' w1' b1' w2' b2' b3' c' := by
  subst hrow hw1 hb1 hw2 hb2 hb3 hc; rfl

end Cert.Gru

end
-- ==== Proof.LibMlpRows.lean ====
/-
  A two-layer perceptron with a ReLU between the layers, read entry by entry on the extended reals, in the two
  spellings a program can give it, generic in the row count `R` and the widths `I`, `H`, `O`:
  * `plain_dot_sum`, `matmul_zero_plain`, `dotGeneral_plain`: a matrix product with the plain dimension numbers
    (rows × contraction times contraction × columns, no batch axis), as a vector unit's `matmul` into a zero accumulator or
    as the host's `dot_general`, is at entry `(p, c)` the sum over `k` of `l (p, k) · r (k, c)`;
  * `mlpRow`, `mlp2`: the perceptron of one row, and of every row of a matrix;
  * `kernel_mlp_apply`: the vector-unit spelling (operands rounded to bfloat16, which is the identity on the extended reals;
    biases cast to one row and repeated down the rows; ReLU as the maximum with a zero splat) is `mlpRow` of the row;
  * `host_mlp_apply`: the host spelling (`dot_general`s, biases broadcast in two steps, ReLU as the maximum with a
    broadcast zero) is the same `mlpRow`.
  No finiteness is needed anywhere: both spellings are the same sums of the same products, term by term.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMlp

open Idealize.ShloMosaic Idealize.ShloMosaic.ValueIdx
open scoped BigOperators

theorem plain_rank (M K N : ℕ) : (DotDims.plain M K N).contr.rank = 1 := rfl
theorem plain_size (M K N : ℕ) : (DotDims.plain M K N).contr.size ⟨0, by rw [plain_rank]; exact Nat.one_pos⟩ = K := rfl

theorem plain_lhs0 (M K N : ℕ) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl

theorem plain_rhs1 (M K N : ℕ) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

theorem plain_lhs1 (M K N : ℕ) (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (M K N : ℕ) (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

/-- The plain matrix product's contraction, re-indexed by the one contracted coordinate. -/
theorem plain_dot_sum (M K N : ℕ) (l : (⟨2, ![M, K]⟩ : Shape).Idx → EReal) (r : (⟨2, ![K, N]⟩ : Shape).Idx → EReal)
    (p : Fin M) (c : Fin N) :
    ∑ q : (DotDims.plain M K N).contr.Idx, l ((DotDims.plain M K N).lhsIdx (ix2 p c) q) * r ((DotDims.plain M K N).rhsIdx (ix2 p c) q)
      = ∑ k : Fin K, l (ix2 p k) * r (ix2 k c) := by
  rw [← Equiv.sum_comp (contrEquiv1 (DotDims.plain M K N) K (plain_rank M K N) (plain_size M K N)).symm]
  refine Finset.sum_congr rfl fun k _ => ?_
  have hk := contrEquiv1_symm_val (DotDims.plain M K N) K (plain_rank M K N) (plain_size M K N) k
  have el : (DotDims.plain M K N).lhsIdx (ix2 p c) ((contrEquiv1 (DotDims.plain M K N) K (plain_rank M K N) (plain_size M K N)).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p c) ((contrEquiv1 (DotDims.plain M K N) K (plain_rank M K N) (plain_size M K N)).symm k) = ix2 k c :=
    funext fun a => Fin.ext (by
      match a with
      | ⟨0, _⟩ => exact (plain_rhs0 M K N _ _).trans hk
      | ⟨1, _⟩ => exact plain_rhs1 M K N _ _)
  rw [el, er]

/-- A `tpu.matmul` with the plain dimension numbers into the zero splat, at an entry: the row's product with the column. -/
theorem matmul_zero_plain (M K N : ℕ) (prec : Option ContractPrecision) {φ₁ φ₂ : FTy}
    (l : FVec Ideal ⟨2, ![M, K]⟩ φ₁) (r : FVec Ideal ⟨2, ![K, N]⟩ φ₂) (p : Fin M) (c : Fin N) :
    FloatOps.matmul (DotDims.plain M K N) prec l r (constant ⟨2, ![M, N]⟩ .f32 0x00000000#32) (ix2 p c) = ∑ k : Fin K, l (ix2 p k) * r (ix2 k c) :=
  (Ideal.matmul_constant_zero_apply (DotDims.plain M K N) prec l r (ix2 p c)).trans (plain_dot_sum M K N l r p c)

/-- The host's `dot_general` with the plain dimension numbers, at an entry: the same sum. -/
theorem dotGeneral_plain (M K N : ℕ) (prec : Option ContractPrecision) (sched : HostSchedule) {φ₁ φ₂ : FTy}
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) :=
  (Ideal.dotGeneral_apply (DotDims.plain M K N) prec sched l r (ix2 p c)).trans (plain_dot_sum M K N l r p c)

/-! ## A two-layer perceptron, row by row -/

/-- One entry of `relu (row · w1 + b1) · w2 + b2` on the extended reals: the hidden unit `k` is the row's product with
    column `k` of `w1` plus `b1 k`, floored at `z`; the entry is the hidden row's product with column `q` of `w2` plus `b2 q`. -/
def mlpRow {I H O : ℕ} (z : EReal) (row : Fin I → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (q : Fin O) : EReal :=
  (∑ k : Fin H, max ((∑ j : Fin I, row j * w1 (ix2 j k)) + b1 (ix1 k)) z * w2 (ix2 k q)) + b2 (ix1 q)

/-- The perceptron applied to every row of `X`: entry `(r, q)` depends on row `r` of `X` only. The floor is the
    binary32 zero word's value. -/
def mlp2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) : (⟨2, ![R, O]⟩ : Shape).Idx → EReal :=
  fun i => mlpRow (Ideal.ofBits .f32 0x00000000#32) (fun j => X (ix2 (i 0) j)) w1 b1 w2 b2 (i 1)

theorem mlp2_ix2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (p : Fin R) (q : Fin O) :
    mlp2 X w1 b1 w2 b2 (ix2 p q) = mlpRow (Ideal.ofBits .f32 0x00000000#32) (fun j => X (ix2 p j)) w1 b1 w2 b2 q := rfl

/-- The kernel body's arithmetic at an entry: both matrix products into a zero accumulator are plain sums, the
    roundings to bfloat16 are the identity on the extended reals, each bias is a vector laid out as one row and
    repeated down the rows, and the ReLU is the maximum with the zero splat. -/
theorem kernel_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hx : (⟨2, ![R, I]⟩ : Shape).ShapeCasts ⟨2, ![R, I]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none (truncf .bf16 (shapeCast ⟨2, ![R, I]⟩ x hx) ht) (truncf .bf16 w1 ht) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht) (truncf .bf16 w2 ht) (constant ⟨2, ![R, O]⟩ .f32 0x00000000#32))
      (broadcastTo ⟨2, ![R, O]⟩ (shapeCast ⟨2, ![1, O]⟩ b2 hb2) hB2) (ix2 p q)
    = mlpRow (Ideal.ofBits .f32 0x00000000#32) (fun j => x (ix2 p j)) w1 b1 w2 b2 q := by
  subst hd1 hd2
  simp only [mlpRow, matmul, addf_apply, maximumf_apply, truncf_apply, matmul_zero_plain,
    broadcastTo_1b_ab_apply, shapeCast_a_1a_apply, shapeCast_self, broadcast_apply]
  rfl

/-- The same perceptron as the host spells it: `dot_general`s, each bias broadcast to one row and then down the rows,
    the ReLU as the maximum with a broadcast zero. -/
theorem host_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1])
    (p : Fin R) (q : Fin O) :
    addf (Host.dotGeneral d2 none (maximumf (addf (Host.dotGeneral d1 none x w1)
        (broadcastInDim ⟨2, ![R, H]⟩ ![0, 1] hB1 (broadcastInDim ⟨2, ![1, H]⟩ ![1] hb1 b1)))
        (broadcastInDim ⟨2, ![R, H]⟩ ![] hz (constant (F := Ideal) ⟨0, ![]⟩ .f32 0x00000000#32))) w2)
      (broadcastInDim ⟨2, ![R, O]⟩ ![0, 1] hB2 (broadcastInDim ⟨2, ![1, O]⟩ ![1] hb2 b2)) (ix2 p q)
    = mlpRow (Ideal.ofBits .f32 0x00000000#32) (fun j => x (ix2 p j)) w1 b1 w2 b2 q := by
  subst hd1 hd2
  have bias1 : ∀ (r : Fin R) (k : Fin H), broadcastInDim ⟨2, ![R, H]⟩ ![0, 1] hB1 (broadcastInDim ⟨2, ![1, H]⟩ ![1] hb1 b1) (ix2 r k) = b1 (ix1 k) := fun r k => by
    rw [broadcastInDim_apply ![0, 1] hB1 _ (ix2 r k) (ix2 (0 : Fin 1) k) (fun a => by
      match a with
      | ⟨0, _⟩ => rfl
      | ⟨1, _⟩ => show k.val = if H = 1 then 0 else k.val; split <;> [(have := k.isLt; omega); rfl])]
    exact broadcastInDim_apply ![1] hb1 _ (ix2 (0 : Fin 1) k) (ix1 k) (fun a => by
      match a with
      | ⟨0, _⟩ => show k.val = if H = 1 then 0 else k.val; split <;> [(have := k.isLt; omega); rfl])
  have bias2 : ∀ (r : Fin R) (k : Fin O), broadcastInDim ⟨2, ![R, O]⟩ ![0, 1] hB2 (broadcastInDim ⟨2, ![1, O]⟩ ![1] hb2 b2) (ix2 r k) = b2 (ix1 k) := fun r k => by
    rw [broadcastInDim_apply ![0, 1] hB2 _ (ix2 r k) (ix2 (0 : Fin 1) k) (fun a => by
      match a with
      | ⟨0, _⟩ => rfl
      | ⟨1, _⟩ => show k.val = if O = 1 then 0 else k.val; split <;> [(have := k.isLt; omega); rfl])]
    exact broadcastInDim_apply ![1] hb2 _ (ix2 (0 : Fin 1) k) (ix1 k) (fun a => by
      match a with
      | ⟨0, _⟩ => show k.val = if O = 1 then 0 else k.val; split <;> [(have := k.isLt; omega); rfl])
  have zero : ∀ (r : Fin R) (k : Fin H), broadcastInDim ⟨2, ![R, H]⟩ ![] hz (constant (F := Ideal) ⟨0, ![]⟩ .f32 0x00000000#32) (ix2 r k) = Ideal.ofBits .f32 0x00000000#32 := fun r k => by
    exact broadcastInDim_apply ![] hz _ (ix2 r k) ix0 (fun a => a.elim0)
  simp only [mlpRow, Host.dotGeneral, addf_apply, maximumf_apply, dotGeneral_plain, bias1, bias2, zero]

end Cert.LibMlp

end
-- ==== Proof.KernelEntry.lean ====
/-
  The kernel body's arithmetic, read at one entry.

  The body loads a block of 1024 input rows `x0`, the embedding weights `x1` laid out [128, 512], the embedding bias as one
  row `x2`, the gate weights `x3` laid out [512, 1536], and the two gate biases as one row each, `x4` and `x5`.  Its one
  stored value, at row `p` and column `c`, is the gated step's hidden entry `Gru.cell` of row `p`:
  * the two matrix products go into zero accumulators, so each is the plain sum over the contracted coordinate;
  * the roundings to bfloat16 before each product are the identity on the extended reals;
  * each bias row is repeated down the 1024 rows, so it is read at its own column;
  * the three gate groups are the column ranges starting at 0, 512 and 1024 of the 1536 gate columns, and of the bias row.
-/
import proofs.«150907_j26920855011914_1_alg».proof.Proof.Gen.KernelIdeal.Skeleton
import proofs.«150907_j26920855011914_1_alg».proof.Proof.GruCell
import proofs.«150907_j26920855011914_1_alg».proof.Proof.LibMlpRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Entry

open Cert.KernelIdeal Idealize.ShloMosaic Idealize.ShloMosaic.ValueIdx
open scoped BigOperators

/-- The first product's dimension numbers are the plain ones: rows by contraction times contraction by columns. -/
theorem dims1 : dot_S1024x128_S128x512_S1024x512_1_0_0_1_n_n = DotDims.plain 1024 128 512 := rfl
/-- So are the second product's. -/
theorem dims2 : dot_S1024x512_S512x1536_S1024x1536_1_0_0_1_n_n = DotDims.plain 1024 512 1536 := rfl

/-- The stored value at row `p`, column `c` is the hidden entry of row `p` of the block. -/
theorem pay_apply (x0 : Vec Ideal S1024x128 .f32) (x1 : Vec Ideal S128x512 .f32) (x2 : Vec Ideal S1x512 .f32)
    (x3 : Vec Ideal S512x1536 .f32) (x4 x5 : Vec Ideal S1x1536 .f32) (p : Fin 1024) (c : Fin 512) :
    Gen.k0_pay1 (F := Ideal) x0 x1 x2 x3 x4 x5 (ix2 p c)
      = Cert.Gru.cell (Ideal.ofBits .f32 0x3F800000#32) (fun k => x0 (ix2 p k)) (fun k h => x1 (ix2 k h)) (fun h => x2 (ix2 (0 : Fin 1) h))
          (fun h g => x3 (ix2 h g)) (fun g => x4 (ix2 (0 : Fin 1) g)) (fun g => x5 (ix2 (0 : Fin 1) g)) c := by
  unfold Gen.k0_pay1
  simp only [dims1, dims2, Cert.Gru.cell, Cert.Gru.pre, Cert.Gru.emb, Cert.Gru.col, matmul, logistic, tanh, mulf_apply, subf_apply, addf_apply,
    broadcast_apply, truncf_apply, shapeCast_self, slice2_axis1_eq, broadcastTo_1b_ab_apply, Cert.LibMlp.matmul_zero_plain]
  rfl

end Cert.KernelIdeal.Entry

end
-- ==== Proof.KernelArray.lean ====
/-
  From blocks to the whole array: what the kernel's result array holds when the region ends.

  The grid has 64 points.  Point `t` reads rows `1024·t … 1024·t + 1023` of the flattened input (window 0) and the whole of
  the five weight and bias arrays (windows 1–5, block index zero at every point), and writes rows `1024·t … 1024·t + 1023`
  of the result (window 6).  Since an entry of the gated step depends on its own input row only, what point `t` writes
  back is block `t` of ONE function of the whole arrays: row `P`, column `q` is `Gru.cell` of input row `P`.  The 64
  blocks tile the 65536 rows — row `P` lies in the block of point `P / 1024` — so the result array ends at that function.
-/
import proofs.«150907_j26920855011914_1_alg».proof.Proof.Gen.KernelIdeal.Frame
import proofs.«150907_j26920855011914_1_alg».proof.Proof.KernelEntry
import Idealize.ShloMosaic.Lib.Pipeline.Value
import Idealize.ShloMosaic.Lib.ValueIdx
import Idealize.ShloMosaic.Lib.Tactic

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Every row of `X` through the gated step, with the weights laid out contraction-first and each bias as one row. -/
def rowsCell (X : S65536x128.Idx → EReal) (W1 : S128x512.Idx → EReal) (B1 : S1x512.Idx → EReal) (W2 : S512x1536.Idx → EReal)
    (B2 B3 : S1x1536.Idx → EReal) : S65536x512.Idx → EReal :=
  fun J => Cert.Gru.cell (Ideal.ofBits .f32 0x3F800000#32) (fun k => X (ix2 (J 0) k)) (fun k h => W1 (ix2 k h)) (fun h => B1 (ix2 (0 : Fin 1) h))
    (fun h g => W2 (ix2 h g)) (fun g => B2 (ix2 (0 : Fin 1) g)) (fun g => B3 (ix2 (0 : Fin 1) g)) (J 1)

/-- The result array as the region leaves it: `rowsCell` of the six arrays the region finds. -/
def G (c : Dev nD) : S65536x512.Idx → EReal :=
  rowsCell (V m c main_v5) (V m c main_v0) (V m c main_v2) (V m c main_v1) (V m c main_v3) (V m c main_v4)

/-- The printed index maps over the 64 points: the input rows and the result rows move with the point, the five
    resident arrays stay at block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The input block at point `t` is rows `1024·t …` of the flattened input. -/
theorem iblk0_apply (c : Dev nD) (t : Fin cfg0.N) (x : S1024x128.Idx) (k : S65536x128.Idx)
    (hk0 : (k 0).val = 1024 * t.val + (x 0).val) (hk1 : (k 1).val = (x 1).val) :
    (iblk m c 0 t : Vec Ideal S1024x128 .f32) x = (V m c main_v5 : S65536x128.Idx → EReal) k := by
  obtain ⟨e00, e01, -⟩ := idx_facts t
  unfold iblk
  rw [View.read_apply]
  show (V m c main_v5 : S65536x128.Idx → EReal) _ = V m c main_v5 k
  refine congrArg (V m c main_v5 : S65536x128.Idx → EReal) (funext fun a => Fin.ext ?_)
  match a with
  | ⟨0, _⟩ => show win0_0.index t 0 * 1024 + 1 * (x 0).val = (k 0).val; rw [e00, hk0]; omega
  | ⟨1, _⟩ => show win0_0.index t 1 * 128 + 1 * (x 1).val = (k 1).val; rw [e01, hk1]; omega

/-- Window 1 stages its whole array at every point: its block index is zero on both axes. -/
theorem iblk1_apply (c : Dev nD) (t : Fin cfg0.N) (x : S128x512.Idx) :
    (iblk m c 1 t : Vec Ideal S128x512 .f32) x = (V m c main_v0 : S128x512.Idx → EReal) x := by
  obtain ⟨-, -, e10, e11, e20, e21, e30, e31, e40, e41, e50, e51, -, -⟩ := idx_facts t
  unfold iblk
  rw [View.read_apply]
  show (V m c main_v0 : S128x512.Idx → EReal) _ = V m c main_v0 x
  refine congrArg (V m c main_v0 : S128x512.Idx → EReal) (funext fun a => Fin.ext ?_)
  match a with
  | ⟨0, _⟩ => show win0_1.index t 0 * 128 + 1 * (x 0).val = (x 0).val; rw [e10]; omega
  | ⟨1, _⟩ => show win0_1.index t 1 * 512 + 1 * (x 1).val = (x 1).val; rw [e11]; omega

/-- Window 2 stages its whole array at every point: its block index is zero on both axes. -/
theorem iblk2_apply (c : Dev nD) (t : Fin cfg0.N) (x : S1x512.Idx) :
    (iblk m c 2 t : Vec Ideal S1x512 .f32) x = (V m c main_v2 : S1x512.Idx → EReal) x := by
  obtain ⟨-, -, e10, e11, e20, e21, e30, e31, e40, e41, e50, e51, -, -⟩ := idx_facts t
  unfold iblk
  rw [View.read_apply]
  show (V m c main_v2 : S1x512.Idx → EReal) _ = V m c main_v2 x
  refine congrArg (V m c main_v2 : S1x512.Idx → EReal) (funext fun a => Fin.ext ?_)
  match a with
  | ⟨0, _⟩ => show win0_2.index t 0 * 1 + 1 * (x 0).val = (x 0).val; rw [e20]; omega
  | ⟨1, _⟩ => show win0_2.index t 1 * 512 + 1 * (x 1).val = (x 1).val; rw [e21]; omega

/-- Window 3 stages its whole array at every point: its block index is zero on both axes. -/
theorem iblk3_apply (c : Dev nD) (t : Fin cfg0.N) (x : S512x1536.Idx) :
    (iblk m c 3 t : Vec Ideal S512x1536 .f32) x = (V m c main_v1 : S512x1536.Idx → EReal) x := by
  obtain ⟨-, -, e10, e11, e20, e21, e30, e31, e40, e41, e50, e51, -, -⟩ := idx_facts t
  unfold iblk
  rw [View.read_apply]
  show (V m c main_v1 : S512x1536.Idx → EReal) _ = V m c main_v1 x
  refine congrArg (V m c main_v1 : S512x1536.Idx → EReal) (funext fun a => Fin.ext ?_)
  match a with
  | ⟨0, _⟩ => show win0_3.index t 0 * 512 + 1 * (x 0).val = (x 0).val; rw [e30]; omega
  | ⟨1, _⟩ => show win0_3.index t 1 * 1536 + 1 * (x 1).val = (x 1).val; rw [e31]; omega

/-- Window 4 stages its whole array at every point: its block index is zero on both axes. -/
theorem iblk4_apply (c : Dev nD) (t : Fin cfg0.N) (x : S1x1536.Idx) :
    (iblk m c 4 t : Vec Ideal S1x1536 .f32) x = (V m c main_v3 : S1x1536.Idx → EReal) x := by
  obtain ⟨-, -, e10, e11, e20, e21, e30, e31, e40, e41, e50, e51, -, -⟩ := idx_facts t
  unfold iblk
  rw [View.read_apply]
  show (V m c main_v3 : S1x1536.Idx → EReal) _ = V m c main_v3 x
  refine congrArg (V m c main_v3 : S1x1536.Idx → EReal) (funext fun a => Fin.ext ?_)
  match a with
  | ⟨0, _⟩ => show win0_4.index t 0 * 1 + 1 * (x 0).val = (x 0).val; rw [e40]; omega
  | ⟨1, _⟩ => show win0_4.index t 1 * 1536 + 1 * (x 1).val = (x 1).val; rw [e41]; omega

/-- Window 5 stages its whole array at every point: its block index is zero on both axes. -/
theorem iblk5_apply (c : Dev nD) (t : Fin cfg0.N) (x : S1x1536.Idx) :
    (iblk m c 5 t : Vec Ideal S1x1536 .f32) x = (V m c main_v4 : S1x1536.Idx → EReal) x := by
  obtain ⟨-, -, e10, e11, e20, e21, e30, e31, e40, e41, e50, e51, -, -⟩ := idx_facts t
  unfold iblk
  rw [View.read_apply]
  show (V m c main_v4 : S1x1536.Idx → EReal) _ = V m c main_v4 x
  refine congrArg (V m c main_v4 : S1x1536.Idx → EReal) (funext fun a => Fin.ext ?_)
  match a with
  | ⟨0, _⟩ => show win0_5.index t 0 * 1 + 1 * (x 0).val = (x 0).val; rw [e50]; omega
  | ⟨1, _⟩ => show win0_5.index t 1 * 1536 + 1 * (x 1).val = (x 1).val; rw [e51]; omega

/-- The body's stored value at entry `j` of point `t`'s block is `G` at the array entry `J` that block entry is. -/
theorem flushed_core (c : Dev nD) (t : Fin cfg0.N) (j : S1024x512.Idx) (J : S65536x512.Idx)
    (h0 : (J 0).val = 1024 * t.val + (j 0).val) (h1 : (J 1).val = (j 1).val) :
    Gen.k0_pay1 (F := Ideal) (iblk m c 0 t) (iblk m c 1 t) (iblk m c 2 t) (iblk m c 3 t) (iblk m c 4 t) (iblk m c 5 t) j = G m c J := by
  obtain ⟨p, q, rfl⟩ : ∃ (p : Fin 1024) (q : Fin 512), j = ix2 p q := ⟨j 0, j 1, eq_ix2 j⟩
  refine (Cert.KernelIdeal.Entry.pay_apply (iblk m c 0 t) (iblk m c 1 t) (iblk m c 2 t) (iblk m c 3 t) (iblk m c 4 t) (iblk m c 5 t) p q).trans ?_
  unfold G rowsCell
  exact Cert.Gru.cell_congr
    (funext fun k => iblk0_apply m c t (ix2 p k) (ix2 (J 0) k) h0 rfl)
    (funext fun k => funext fun h => iblk1_apply m c t (ix2 k h))
    (funext fun h => iblk2_apply m c t (ix2 (0 : Fin 1) h))
    (funext fun h => funext fun g => iblk3_apply m c t (ix2 h g))
    (funext fun g => iblk4_apply m c t (ix2 (0 : Fin 1) g))
    (funext fun g => iblk5_apply m c t (ix2 (0 : Fin 1) g))
    (Fin.ext h1.symm)

/-- WHAT POINT `t` WRITES BACK is block `t` of `G`. -/
theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after0_6]
  unfold out0_6
  rw [View.canon_unit_zero hz]
  simp only [View.ld_unit_zero (S := S1024x128) hz, View.ld_unit_zero (S := S128x512) hz, View.ld_unit_zero (S := S1x512) hz,
    View.ld_unit_zero (S := S512x1536) hz, View.ld_unit_zero (S := S1x1536) hz]
  obtain ⟨-, -, -, -, -, -, -, -, -, -, -, -, e60, e61⟩ := idx_facts t
  funext j
  show Gen.k0_pay1 (F := Ideal) (iblk m c 0 t) (iblk m c 1 t) (iblk m c 2 t) (iblk m c 3 t) (iblk m c 4 t) (iblk m c 5 t) j
    = G m c (((cfg0.win 6).blk t).view.emb j)
  refine flushed_core m c t j _ ?_ ?_
  · show win0_6.index t 0 * 1024 + 1 * (j 0).val = 1024 * t.val + (j 0).val
    rw [e60]; omega
  · show win0_6.index t 1 * 512 + 1 * (j 1).val = (j 1).val
    rw [e61]; omega

/-- An index of the array is in point `t`'s block iff each coordinate is in the block's range on its axis. -/
theorem mem_blk (t : Fin cfg0.N) (i : S65536x512.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v6).slice (win0_6.rect t)).set ↔ _
  rw [View.set_slice_whole, Rect.mem_set_unit]
  exact Iff.rfl

/-- Row `P` of the result lies in the block of point `P / 1024`: the 64 blocks cover the array. -/
theorem cover (i : S65536x512.Idx) : ∃ t : Fin cfg0.N, (cfg0.win 6).flush t = true ∧ i ∈ ((cfg0.win 6).blk t).view.set := by
  have hi0 : (i 0).val < 65536 := (i 0).isLt
  have hi1 : (i 1).val < 512 := (i 1).isLt
  have hlt : (i 0).val / 1024 < grid0.N := by rw [N_0]; omega
  obtain ⟨t, ht⟩ : ∃ t : Fin cfg0.N, t.val = (i 0).val / 1024 := ⟨⟨(i 0).val / 1024, hlt⟩, rfl⟩
  obtain ⟨-, -, -, -, -, -, -, -, -, -, -, -, e60, e61⟩ := idx_facts t
  refine ⟨t, flush0_6 t, ?_⟩
  rw [mem_blk]
  intro a
  match a with
  | ⟨0, _⟩ =>
    show win0_6.index t 0 * 1024 ≤ (i 0).val ∧ (i 0).val < win0_6.index t 0 * 1024 + 1024
    rw [e60, ht]; omega
  | ⟨1, _⟩ =>
    show win0_6.index t 1 * 512 ≤ (i 1).val ∧ (i 1).val < win0_6.index t 1 * 512 + 512
    rw [e61]; omega

/-- THE RESULT ARRAY when the region ends is `G`. -/
theorem final (c : Dev nD) : (dats m 0 c).arrAt 6 cfg0.N = G m c :=
  (dats m 0 c).arrAt_eq_of_cover 6 (G m c) (fun t _ => flushed_eq m c t) cover

end Cert.KernelIdeal.Whole

end
-- ==== Proof.GruArray.lean ====
/-
  The whole hidden array of the gated step: for batch `b`, time step `s` and column `c`, the hidden entry of the input
  row `x[b, s, ·]`, with the weights as the host holds them (`w_emb[h, k]`, `w_ih[g, h]`) and the biases as vectors.
  Both programs end by cutting this one array the same way, so it is stated once, over the literal shapes.
-/
import proofs.«150907_j26920855011914_1_alg».proof.Proof.GruCell
import Idealize.ShloMosaic.Lib.ValueIdx

noncomputable section

namespace Cert.Gru

open Idealize.ShloMosaic Idealize.ShloMosaic.ValueIdx

/-- The hidden array `[128, 512, 512]` as a function of the six argument arrays. -/
def hidden (a0 : (⟨3, ![128, 512, 128]⟩ : Shape).Idx → EReal) (a1 : (⟨2, ![512, 128]⟩ : Shape).Idx → EReal)
    (a2 : (⟨1, ![512]⟩ : Shape).Idx → EReal) (a3 : (⟨2, ![1536, 512]⟩ : Shape).Idx → EReal)
    (a4 a5 : (⟨1, ![1536]⟩ : Shape).Idx → EReal) : (⟨3, ![128, 512, 512]⟩ : Shape).Idx → EReal :=
  fun i => cell (Ideal.ofBits .f32 0x3F800000#32) (fun k => a0 (ix3 (i 0) (i 1) k)) (fun k h => a1 (ix2 h k)) (fun h => a2 (ix1 h))
    (fun h g => a3 (ix2 g h)) (fun g => a4 (ix1 g)) (fun g => a5 (ix1 g)) (i 2)

theorem hidden_ix3 (a0 : (⟨3, ![128, 512, 128]⟩ : Shape).Idx → EReal) (a1 : (⟨2, ![512, 128]⟩ : Shape).Idx → EReal)
    (a2 : (⟨1, ![512]⟩ : Shape).Idx → EReal) (a3 : (⟨2, ![1536, 512]⟩ : Shape).Idx → EReal)
    (a4 a5 : (⟨1, ![1536]⟩ : Shape).Idx → EReal) (b : Fin 128) (s : Fin 512) (c : Fin 512) :
    hidden a0 a1 a2 a3 a4 a5 (ix3 b s c)
      = cell (Ideal.ofBits .f32 0x3F800000#32) (fun k => a0 (ix3 b s k)) (fun k h => a1 (ix2 h k)) (fun h => a2 (ix1 h))
          (fun h g => a3 (ix2 g h)) (fun g => a4 (ix1 g)) (fun g => a5 (ix1 g)) c := rfl

end Cert.Gru

end
-- ==== Proof.KernelRun.lean ====
/-
  The kernel's run, read to its two results.

  Before the region the host transposes the two weight matrices, lays each bias out as one row and flattens batch and time
  of the input into 65536 rows.  The region leaves the result array at `Whole.G` of those six arrays.  After it the host
  unflattens the rows into batch and time — row `512·b + s` is `(b, s)` — which gives `Gru.hidden` of the ARGUMENTS: the
  transposes and the row layouts undo themselves inside `Gru.cell`.  The two results are then the hidden array's first 511
  time steps, and its last time step laid out `[1, 128, 512]`.
-/
import proofs.«150907_j26920855011914_1_alg».proof.Proof.KernelArray
import proofs.«150907_j26920855011914_1_alg».proof.Proof.GruArray
import Idealize.ShloMosaic.Lib.ValueLayout
import Idealize.ShloMosaic.Lib.StableHlo.Run

noncomputable section

namespace Cert.KernelIdeal.Result

open Cert.KernelIdeal Cert.KernelIdeal.Gen Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ) (ρ : Dev nD → PrngReg)

/-! ## The six arrays the region finds -/

/-- The input with batch and time flattened into rows. -/
theorem V_x (c : Dev nD) : (V m c main_v5 : S65536x128.Idx → EReal) = shapeCast S65536x128 (m ((c : Thread nD τ).loc main_arg0)) shapeCasts_S128x512x128_S65536x128 := by
  show StableHlo.after hostOps0 (fun b => m (c, b)) (Proc.devRef .tc main_v5) = _
  after_results
  rfl

/-- The embedding weights transposed. -/
theorem V_w1 (c : Dev nD) : (V m c main_v0 : S128x512.Idx → EReal) = transpose S128x512 [1, 0] (m ((c : Thread nD τ).loc main_arg1)) transposes_S512x128_S128x512_1_0 := by
  show StableHlo.after hostOps0 (fun b => m (c, b)) (Proc.devRef .tc main_v0) = _
  after_results

/-- The embedding bias as one row. -/
theorem V_b1 (c : Dev nD) : (V m c main_v2 : S1x512.Idx → EReal) = shapeCast S1x512 (m ((c : Thread nD τ).loc main_arg2)) shapeCasts_S512_S1x512 := by
  show StableHlo.after hostOps0 (fun b => m (c, b)) (Proc.devRef .tc main_v2) = _
  after_results
  rfl

/-- The gate weights transposed. -/
theorem V_w2 (c : Dev nD) : (V m c main_v1 : S512x1536.Idx → EReal) = transpose S512x1536 [1, 0] (m ((c : Thread nD τ).loc main_arg3)) transposes_S1536x512_S512x1536_1_0 := by
  show StableHlo.after hostOps0 (fun b => m (c, b)) (Proc.devRef .tc main_v1) = _
  after_results

/-- The gate bias as one row. -/
theorem V_b2 (c : Dev nD) : (V m c main_v3 : S1x1536.Idx → EReal) = shapeCast S1x1536 (m ((c : Thread nD τ).loc main_arg4)) shapeCasts_S1536_S1x1536 := by
  show StableHlo.after hostOps0 (fun b => m (c, b)) (Proc.devRef .tc main_v3) = _
  after_results
  rfl

/-- The recurrent bias as one row. -/
theorem V_b3 (c : Dev nD) : (V m c main_v4 : S1x1536.Idx → EReal) = shapeCast S1x1536 (m ((c : Thread nD τ).loc main_arg5)) shapeCasts_S1536_S1x1536 := by
  show StableHlo.after hostOps0 (fun b => m (c, b)) (Proc.devRef .tc main_v4) = _
  after_results
  rfl

/-! ## The rows unflattened -/

/-- The region's result, its 65536 rows read as batch and time, is the hidden array of the arguments. -/
theorem reshape_G (c : Dev nD) :
    shapeCast S128x512x512 (Cert.KernelIdeal.Whole.G m c) shapeCasts_S65536x512_S128x512x512
      = Cert.Gru.hidden (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  funext i
  obtain ⟨b, s, q, rfl⟩ : ∃ (b : Fin 128) (s : Fin 512) (q : Fin 512), i = ix3 b s q := ⟨i 0, i 1, i 2, eq_ix3 i⟩
  have hb : b.val < 128 := b.isLt
  have hs : s.val < 512 := s.isLt
  have hP : 512 * b.val + s.val < 65536 := by omega
  rw [shapeCast_apply (Cert.KernelIdeal.Whole.G m c) shapeCasts_S65536x512_S128x512x512 (ix3 b s q) (ix2 ⟨512 * b.val + s.val, hP⟩ q) (by
    rw [Shape.rowMajor_val_two, Shape.rowMajor_val_three]
    show (512 * b.val + s.val) * 512 + q.val = (b.val * 512 + s.val) * 512 + q.val
    omega)]
  rw [Cert.Gru.hidden_ix3]
  unfold Cert.KernelIdeal.Whole.G Cert.KernelIdeal.Whole.rowsCell
  refine Cert.Gru.cell_congr (funext fun k => ?_) (funext fun k => funext fun h => ?_) (funext fun h => ?_)
    (funext fun h => funext fun g => ?_) (funext fun g => ?_) (funext fun g => ?_) rfl
  · show (V m c main_v5 : S65536x128.Idx → EReal) (ix2 ⟨512 * b.val + s.val, hP⟩ k) = m ((c : Thread nD τ).loc main_arg0) (ix3 b s k)
    rw [V_x]
    exact shapeCast_apply _ shapeCasts_S128x512x128_S65536x128 _ _ (by
      rw [Shape.rowMajor_val_three, Shape.rowMajor_val_two]
      show (b.val * 512 + s.val) * 128 + k.val = (512 * b.val + s.val) * 128 + k.val
      omega)
  · show (V m c main_v0 : S128x512.Idx → EReal) (ix2 k h) = m ((c : Thread nD τ).loc main_arg1) (ix2 h k)
    rw [V_w1]
    exact transpose_ix2_apply _ transposes_S512x128_S128x512_1_0 k h
  · show (V m c main_v2 : S1x512.Idx → EReal) (ix2 (0 : Fin 1) h) = m ((c : Thread nD τ).loc main_arg2) (ix1 h)
    rw [V_b1]
    exact shapeCast_a_1a_apply _ shapeCasts_S512_S1x512 0 h
  · show (V m c main_v1 : S512x1536.Idx → EReal) (ix2 h g) = m ((c : Thread nD τ).loc main_arg3) (ix2 g h)
    rw [V_w2]
    exact transpose_ix2_apply _ transposes_S1536x512_S512x1536_1_0 h g
  · show (V m c main_v3 : S1x1536.Idx → EReal) (ix2 (0 : Fin 1) g) = m ((c : Thread nD τ).loc main_arg4) (ix1 g)
    rw [V_b2]
    exact shapeCast_a_1a_apply _ shapeCasts_S1536_S1x1536 0 g
  · show (V m c main_v4 : S1x1536.Idx → EReal) (ix2 (0 : Fin 1) g) = m ((c : Thread nD τ).loc main_arg5) (ix1 g)
    rw [V_b3]
    exact shapeCast_a_1a_apply _ shapeCasts_S1536_S1x1536 0 g

/-! ## The two results -/

/-- The hidden array of the arguments, as this program's memory holds them. -/
abbrev hid (c : Dev nD) : S128x512x512.Idx → EReal :=
  Cert.Gru.hidden (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The first result: time steps 0 … 510 of the hidden array. -/
def out8 (c : Dev nD) : Buf (Elt Ideal) ((c : Thread nD τ).loc main_v8) :=
  extractStridedSlice S128x511x512 ![0, 0, 0] (hid m c) slices_S128x512x512_S128x511x512_0_0_0

/-- The second result: time step 511 of the hidden array, with a leading unit axis. -/
def out11 (c : Dev nD) : Buf (Elt Ideal) ((c : Thread nD τ).loc main_v11) :=
  broadcastInDim S1x128x512 ![1, 2] bcast_S128x512_S1x128x512_1_2
    (shapeCast S128x512 (extractStridedSlice S128x1x512 ![0, 511, 0] (hid m c) slices_S128x512x512_S128x1x512_0_511_0) shapeCasts_S128x1x512_S128x512)

/-- The lines after the region read the result array the region left, which is `Whole.G`. -/
theorem arr6 (c : Dev nD) :
    Pipeline.withArrays (cfgs 0).spec c (V0 m c) (fun w => (dats m 0 c).arrAt w (cfgs 0).N) (Proc.devRef .tc main_v6)
      = Cert.KernelIdeal.Whole.G m c :=
  (Pipeline.withArrays_arr spec0 launch0.win.arr_inj c _ _ 6).trans (Cert.KernelIdeal.Whole.final m c)

/-- The first result after the lines that follow the region. -/
theorem tail8 (c : Dev nD) : Pipeline.afterTail₀ cfgs (dats m) 0 (V0 m) [hostOps1] c main_v8 = out8 m c := by
  have e : Pipeline.afterTail₀ cfgs (dats m) 0 (V0 m) [hostOps1] c main_v8
      = extractStridedSlice S128x511x512 ![0, 0, 0]
          (shapeCast S128x512x512 (Pipeline.withArrays (cfgs 0).spec c (V0 m c) (fun w => (dats m 0 c).arrAt w (cfgs 0).N) (Proc.devRef .tc main_v6))
            shapeCasts_S65536x512_S128x512x512) slices_S128x512x512_S128x511x512_0_0_0 := by
    unfold Pipeline.afterTail₀
    show StableHlo.after hostOps1 _ (Proc.devRef .tc main_v8) = _
    after_results
    rfl
  rw [e, arr6, reshape_G]
  rfl

/-- The second result after the lines that follow the region. -/
theorem tail11 (c : Dev nD) : Pipeline.afterTail₀ cfgs (dats m) 0 (V0 m) [hostOps1] c main_v11 = out11 m c := by
  have e : Pipeline.afterTail₀ cfgs (dats m) 0 (V0 m) [hostOps1] c main_v11
      = broadcastInDim S1x128x512 ![1, 2] bcast_S128x512_S1x128x512_1_2
          (shapeCast S128x512 (extractStridedSlice S128x1x512 ![0, 511, 0]
            (shapeCast S128x512x512 (Pipeline.withArrays (cfgs 0).spec c (V0 m c) (fun w => (dats m 0 c).arrAt w (cfgs 0).N) (Proc.devRef .tc main_v6))
              shapeCasts_S65536x512_S128x512x512) slices_S128x512x512_S128x1x512_0_511_0) shapeCasts_S128x1x512_S128x512) := by
    unfold Pipeline.afterTail₀
    show StableHlo.after hostOps1 _ (Proc.devRef .tc main_v11) = _
    after_results
    rfl
  rw [e, arr6, reshape_G]
  rfl

/-- THE RUN, READ: every weakly fair execution ends with the two results at `out8` and `out11`, the arguments unchanged. -/
theorem run : θ_run defs (onTc (τ := τ) (main (F := Ideal))) ⟨m, fun _ => 0, ρ⟩ fun r => ∀ c : Dev nD,
      r.2.mem ((c : Thread nD τ).loc main_v8) = out8 m c
      ∧ r.2.mem ((c : Thread nD τ).loc main_v11) = out11 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v8 (Pipeline.mem_restRefs_of main_v8 (by decide) (by decide))).trans (tail8 m c),
      ((h c).2 main_v11 (Pipeline.mem_restRefs_of main_v11 (by decide) (by decide))).trans (tail11 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Result

end
-- ==== Proof.LibLogisticSpelled.lean ====
/-
  The sigmoid written out with the binary32 word for one.

  A host program that expands the sigmoid writes `1 / (1 + e^(−t))` with its two ones as the binary32 constant
  `0x3F800000`; a vector unit's own sigmoid operation is, on the extended reals, by definition that quotient with the
  number one.  The word denotes the number one (`one_bits`), so the two agree at every extended real `t`, the infinities
  included (`logistic_spelled`; `logistic_spelled_host` is the same with the host's operation names).  No finiteness of
  `t` is needed.
-/
import Idealize.ShloMosaic.PureOps.Ideal

noncomputable section

namespace Cert.LibLogistic

open Idealize.ShloMosaic

/-- The binary32 word `0x3F800000` is the number one. -/
theorem one_bits : Ideal.ofBits .f32 0x3F800000#32 = (1 : EReal) := by
  simp [Ideal.ofBits, Ideal.ieee, -EReal.coe_mul]; norm_num

/-- The sigmoid spelled out with that word for its two ones — one over one plus the exponential of the negated
    argument — is the sigmoid. -/
theorem logistic_spelled (t : EReal) :
    Ideal.div (Ideal.ofBits .f32 0x3F800000#32) (Ideal.ofBits .f32 0x3F800000#32 + Ideal.exp (-t)) = Ideal.logistic t := by
  rw [one_bits]; rfl

/-- The same with the host's names for the quotient, the sum, the exponential and the negation. -/
theorem logistic_spelled_host (t : Ideal .f32) :
    FloatOps.hostDivf (Ideal.ofBits .f32 0x3F800000#32 : Ideal .f32)
        (FloatOps.addf (Ideal.ofBits .f32 0x3F800000#32 : Ideal .f32) (FloatOps.hostUnary .exp (FloatOps.hostNegf t)))
      = Ideal.logistic t :=
  logistic_spelled t

end Cert.LibLogistic

end
-- ==== Proof.RefEntry.lean ====
/-
  The reference's hidden array, read at one entry.

  Before its last slices the reference holds a [128, 512, 512] array: for batch `b`, time step `s` and column `c` the gated
  step's hidden entry `Gru.cell` of the input row `x[b, s, ·]`.  Read stage by stage:
  * the first contraction pairs `x[b, s, k]` with `w_emb[h, k]` and adds `b_emb[h]` (broadcast in two steps);
  * the second pairs the embedded row with `w_ih[g, h]` and adds `b_ih[g]`;
  * the three gate groups are the column ranges starting at 0, 512 and 1024, both of the pre-activations and of `b_hh`;
  * the sigmoid is written out as one over one plus the exponential of the negated argument, which is the sigmoid.
-/
import proofs.«150907_j26920855011914_1_alg».proof.Proof.Gen.ReferenceIdeal.Read
import proofs.«150907_j26920855011914_1_alg».proof.Proof.GruCell
import proofs.«150907_j26920855011914_1_alg».proof.Proof.LibLogisticSpelled
import Idealize.ShloMosaic.Lib.ValueIdx

noncomputable section

namespace Cert.ReferenceIdeal.Entry

open Cert.ReferenceIdeal Cert.ReferenceIdeal.Read Idealize.ShloMosaic Idealize.ShloMosaic.ValueIdx
open scoped BigOperators

variable (x0 : (⟨S128x512x128, .f32⟩ : BufTy).Contents (Elt Ideal)) (x1 : (⟨S512x128, .f32⟩ : BufTy).Contents (Elt Ideal)) (x2 : (⟨S512, .f32⟩ : BufTy).Contents (Elt Ideal)) (x3 : (⟨S1536x512, .f32⟩ : BufTy).Contents (Elt Ideal))
  (x4 x5 : (⟨S1536, .f32⟩ : BufTy).Contents (Elt Ideal))

/-- The embedded row at `(b, s, h)`. -/
theorem emb_apply (b : Fin 128) (s : Fin 512) (h : Fin 512) :
    val_main_v3 (F := Ideal) x0 x1 x2 (ix3 b s h)
      = Cert.Gru.emb (fun k => x0 (ix3 b s k)) (fun k h => x1 (ix2 h k)) (fun h => x2 (ix1 h)) h := by
  have el : ∀ k : Fin 128, lidx_main_v0 (ix3 b s h) k = ix3 b s k := fun k => funext fun a => Fin.ext (by
    match a with
    | ⟨0, _⟩ => rfl
    | ⟨1, _⟩ => rfl
    | ⟨2, _⟩ => rfl)
  have er : ∀ k : Fin 128, ridx_main_v0 (ix3 b s h) k = ix2 h k := fun k => funext fun a => Fin.ext (by
    match a with
    | ⟨0, _⟩ => rfl
    | ⟨1, _⟩ => rfl)
  have eb : idx_main_v1 (idx_main_v2 (ix3 b s h)) = ix1 h := funext fun a => Fin.ext (by
    match a with
    | ⟨0, _⟩ => rfl)
  rw [val_main_v3_apply, val_main_v0_apply, val_main_v2_apply, val_main_v1_apply, eb]
  simp only [el, er]
  rfl

/-- The gate pre-activation at `(b, s, g)`. -/
theorem pre_apply (b : Fin 128) (s : Fin 512) (g : Fin 1536) :
    val_main_v7 (F := Ideal) x0 x1 x2 x3 x4 (ix3 b s g)
      = Cert.Gru.pre (fun k => x0 (ix3 b s k)) (fun k h => x1 (ix2 h k)) (fun h => x2 (ix1 h)) (fun h g => x3 (ix2 g h)) (fun g => x4 (ix1 g)) g := by
  have el : ∀ h : Fin 512, lidx_main_v4 (ix3 b s g) h = ix3 b s h := fun h => funext fun a => Fin.ext (by
    match a with
    | ⟨0, _⟩ => rfl
    | ⟨1, _⟩ => rfl
    | ⟨2, _⟩ => rfl)
  have er : ∀ h : Fin 512, ridx_main_v4 (ix3 b s g) h = ix2 g h := fun h => funext fun a => Fin.ext (by
    match a with
    | ⟨0, _⟩ => rfl
    | ⟨1, _⟩ => rfl)
  have eb : idx_main_v5 (idx_main_v6 (ix3 b s g)) = ix1 g := funext fun a => Fin.ext (by
    match a with
    | ⟨0, _⟩ => rfl)
  rw [val_main_v7_apply, val_main_v4_apply, val_main_v6_apply, val_main_v5_apply, eb]
  simp only [el, er, emb_apply]
  rfl

/-! The three gate groups of the pre-activations. -/

theorem gate0 (b : Fin 128) (s : Fin 512) (c : Fin 512) :
    val_main_v8 (F := Ideal) x0 x1 x2 x3 x4 (ix3 b s c) = val_main_v7 (F := Ideal) x0 x1 x2 x3 x4 (ix3 b s (Cert.Gru.col 0 (by omega) c)) := by
  rw [val_main_v8_apply]
  exact congrArg _ (funext fun a => Fin.ext (by
    match a with
    | ⟨0, _⟩ => rfl
    | ⟨1, _⟩ => rfl
    | ⟨2, _⟩ => exact (Nat.zero_add _).symm))

theorem gate1 (b : Fin 128) (s : Fin 512) (c : Fin 512) :
    val_main_v9 (F := Ideal) x0 x1 x2 x3 x4 (ix3 b s c) = val_main_v7 (F := Ideal) x0 x1 x2 x3 x4 (ix3 b s (Cert.Gru.col 512 (by omega) c)) := by
  rw [val_main_v9_apply]
  exact congrArg _ (funext fun a => Fin.ext (by
    match a with
    | ⟨0, _⟩ => rfl
    | ⟨1, _⟩ => rfl
    | ⟨2, _⟩ => rfl))

theorem gate2 (b : Fin 128) (s : Fin 512) (c : Fin 512) :
    val_main_v10 (F := Ideal) x0 x1 x2 x3 x4 (ix3 b s c) = val_main_v7 (F := Ideal) x0 x1 x2 x3 x4 (ix3 b s (Cert.Gru.col 1024 (by omega) c)) := by
  rw [val_main_v10_apply]
  exact congrArg _ (funext fun a => Fin.ext (by
    match a with
    | ⟨0, _⟩ => rfl
    | ⟨1, _⟩ => rfl
    | ⟨2, _⟩ => rfl))

/-! The three groups of the recurrent bias, each broadcast over batch and time. -/

theorem bias0 (b : Fin 128) (s : Fin 512) (c : Fin 512) :
    val_main_v15 (F := Ideal) x5 (ix3 b s c) = x5 (ix1 (Cert.Gru.col 0 (by omega) c)) := by
  rw [val_main_v15_apply, val_main_v14_apply, val_main_v11_apply]
  exact congrArg x5 (funext fun a => Fin.ext (by
    match a with
    | ⟨0, _⟩ => exact (Nat.zero_add _).symm))

theorem bias1 (b : Fin 128) (s : Fin 512) (c : Fin 512) :
    val_main_v24 (F := Ideal) x5 (ix3 b s c) = x5 (ix1 (Cert.Gru.col 512 (by omega) c)) := by
  rw [val_main_v24_apply, val_main_v23_apply, val_main_v12_apply]
  exact congrArg x5 (funext fun a => Fin.ext (by
    match a with
    | ⟨0, _⟩ => rfl))

theorem bias2 (b : Fin 128) (s : Fin 512) (c : Fin 512) :
    val_main_v33 (F := Ideal) x5 (ix3 b s c) = x5 (ix1 (Cert.Gru.col 1024 (by omega) c)) := by
  rw [val_main_v33_apply, val_main_v32_apply, val_main_v13_apply]
  exact congrArg x5 (funext fun a => Fin.ext (by
    match a with
    | ⟨0, _⟩ => rfl))

/-! The broadcast ones. -/

theorem one19 (i : S128x512x512.Idx) : val_main_v19 (F := Ideal) i = Ideal.ofBits .f32 0x3F800000#32 := by
  rw [val_main_v19_apply]; rfl
theorem one21 (i : S128x512x512.Idx) : val_main_v21 (F := Ideal) i = Ideal.ofBits .f32 0x3F800000#32 := by
  rw [val_main_v21_apply]; rfl
theorem one28 (i : S128x512x512.Idx) : val_main_v28 (F := Ideal) i = Ideal.ofBits .f32 0x3F800000#32 := by
  rw [val_main_v28_apply]; rfl
theorem one30 (i : S128x512x512.Idx) : val_main_v30 (F := Ideal) i = Ideal.ofBits .f32 0x3F800000#32 := by
  rw [val_main_v30_apply]; rfl
theorem one37 (i : S128x512x512.Idx) : val_main_v37 (F := Ideal) i = Ideal.ofBits .f32 0x3F800000#32 := by
  rw [val_main_v37_apply]; rfl

/-- The hidden array at `(b, s, c)` is the hidden entry of the input row `x[b, s, ·]`. -/
theorem hidden_apply (b : Fin 128) (s : Fin 512) (c : Fin 512) :
    val_main_v39 (F := Ideal) x0 x1 x2 x3 x4 x5 (ix3 b s c)
      = Cert.Gru.cell (Ideal.ofBits .f32 0x3F800000#32) (fun k => x0 (ix3 b s k)) (fun k h => x1 (ix2 h k)) (fun h => x2 (ix1 h))
          (fun h g => x3 (ix2 g h)) (fun g => x4 (ix1 g)) (fun g => x5 (ix1 g)) c := by
  rw [val_main_v39_apply, val_main_v38_apply, val_main_v36_apply, val_main_v35_apply, val_main_v34_apply, val_main_v31_apply,
    val_main_v29_apply, val_main_v27_apply, val_main_v26_apply, val_main_v25_apply, val_main_v22_apply, val_main_v20_apply,
    val_main_v18_apply, val_main_v17_apply, val_main_v16_apply, one19, one21, one28, one30, one37,
    gate0, gate1, gate2, bias0, bias1, bias2, pre_apply, pre_apply, pre_apply]
  simp only [Ideal.hostDivf_def, Ideal.hostUnary_exp_def, Ideal.hostUnary_tanh_def, Ideal.hostNegf_def, Ideal.negf_def, Ideal.addf_def,
    Ideal.subf_def, Ideal.mulf_def, Cert.LibLogistic.logistic_spelled]
  rfl

end Cert.ReferenceIdeal.Entry

end
-- ==== Proof.RefRun.lean ====
/-
  The reference's two results: its hidden array is `Gru.hidden` of the arguments, entry by entry, and the results are that
  array's first 511 time steps, and its last time step laid out `[1, 128, 512]`.
-/
import proofs.«150907_j26920855011914_1_alg».proof.Proof.RefEntry
import proofs.«150907_j26920855011914_1_alg».proof.Proof.GruArray

noncomputable section

namespace Cert.ReferenceIdeal.Entry

open Cert.ReferenceIdeal Cert.ReferenceIdeal.Gen Cert.ReferenceIdeal.Read Idealize.ShloMosaic Idealize.ShloMosaic.ValueIdx

/-- The hidden array before the last slices is `Gru.hidden` of the arguments. -/
theorem hidden_eq (x0 : (⟨S128x512x128, .f32⟩ : BufTy).Contents (Elt Ideal)) (x1 : (⟨S512x128, .f32⟩ : BufTy).Contents (Elt Ideal))
    (x2 : (⟨S512, .f32⟩ : BufTy).Contents (Elt Ideal)) (x3 : (⟨S1536x512, .f32⟩ : BufTy).Contents (Elt Ideal))
    (x4 x5 : (⟨S1536, .f32⟩ : BufTy).Contents (Elt Ideal)) :
    val_main_v39 (F := Ideal) x0 x1 x2 x3 x4 x5 = Cert.Gru.hidden x0 x1 x2 x3 x4 x5 := by
  funext i
  obtain ⟨b, s, c, rfl⟩ : ∃ (b : Fin 128) (s : Fin 512) (c : Fin 512), i = ix3 b s c := ⟨i 0, i 1, i 2, eq_ix3 i⟩
  exact hidden_apply x0 x1 x2 x3 x4 x5 b s c

/-- The first result: time steps 0 … 510 of the hidden array. -/
theorem result40 (x0 : (⟨S128x512x128, .f32⟩ : BufTy).Contents (Elt Ideal)) (x1 : (⟨S512x128, .f32⟩ : BufTy).Contents (Elt Ideal))
    (x2 : (⟨S512, .f32⟩ : BufTy).Contents (Elt Ideal)) (x3 : (⟨S1536x512, .f32⟩ : BufTy).Contents (Elt Ideal))
    (x4 x5 : (⟨S1536, .f32⟩ : BufTy).Contents (Elt Ideal)) :
    val_main_v40 (F := Ideal) x0 x1 x2 x3 x4 x5
      = extractStridedSlice S128x511x512 ![0, 0, 0] (Cert.Gru.hidden x0 x1 x2 x3 x4 x5) slices_S128x512x512_S128x511x512_0_0_0 := by
  unfold val_main_v40
  rw [hidden_eq]

/-- The second result: time step 511 of the hidden array, with a leading unit axis. -/
theorem result43 (x0 : (⟨S128x512x128, .f32⟩ : BufTy).Contents (Elt Ideal)) (x1 : (⟨S512x128, .f32⟩ : BufTy).Contents (Elt Ideal))
    (x2 : (⟨S512, .f32⟩ : BufTy).Contents (Elt Ideal)) (x3 : (⟨S1536x512, .f32⟩ : BufTy).Contents (Elt Ideal))
    (x4 x5 : (⟨S1536, .f32⟩ : BufTy).Contents (Elt Ideal)) :
    val_main_v43 (F := Ideal) x0 x1 x2 x3 x4 x5
      = broadcastInDim S1x128x512 ![1, 2] bcast_S128x512_S1x128x512_1_2
          (shapeCast S128x512 (extractStridedSlice S128x1x512 ![0, 511, 0] (Cert.Gru.hidden x0 x1 x2 x3 x4 x5) slices_S128x512x512_S128x1x512_0_511_0)
            shapeCasts_S128x1x512_S128x512) := by
  unfold val_main_v43 val_main_v42 val_main_v41
  rw [hidden_eq]

end Cert.ReferenceIdeal.Entry

end
-- ==== Proof.lean ====
/-
  A gated recurrent step whose hidden state is reset to zero at every time step, fused into one kernel, against the
  same step written with two einsums on the host.

  With a zero hidden state the recurrent product vanishes and only its bias survives, so every (batch, time) row is
  independent: the row is embedded (a product with `w_emb` transposed, plus `b_emb`), sent to 1536 gate pre-activations (a
  product with `w_ih` transposed, plus `b_ih`), and the reset, update and candidate gates give the hidden entry
  `(1 − z) · n` (Proof/GruCell.lean's `Gru.cell`).  The kernel flattens batch and time into 65536 rows and handles 1024 of
  them per grid point; the reference keeps the three axes.  On the extended reals
  * the kernel's roundings to bfloat16 are the identity, its two products into zero accumulators are the plain sums, and
    its sigmoid is by definition the quotient `1 / (1 + e^(−t))` the reference writes out (Proof/KernelEntry.lean,
    Proof/RefEntry.lean: both sides are `Gru.cell` of the input row, entry by entry — the same sums of the same products
    in the same arrangement, so no finiteness is used);
  * the 64 blocks of 1024 rows tile the kernel's result array (Proof/KernelArray.lean), and unflattening its rows gives
    the reference's hidden array (Proof/KernelRun.lean, Proof/GruArray.lean's `Gru.hidden`);
  * both programs end by cutting that array the same way: the first 511 time steps, and the last one laid out
    `[1, 128, 512]` (Proof/KernelRun.lean, Proof/RefRun.lean).
  The idealized kernel is the kernel's own text read on the extended reals (no rewrite was applied), so `preserves` is
  trivial.  The three frames are the generated ones; the reference's is its generated run with the results dropped.
-/
import proofs.«150907_j26920855011914_1_alg».proof.Defs
import proofs.«150907_j26920855011914_1_alg».proof.Proof.Gen.Kernel
import proofs.«150907_j26920855011914_1_alg».proof.Proof.Gen.Kernel.Skeleton
import proofs.«150907_j26920855011914_1_alg».proof.Proof.Gen.Kernel.Launch
import proofs.«150907_j26920855011914_1_alg».proof.Proof.Gen.Kernel.Points
import proofs.«150907_j26920855011914_1_alg».proof.Proof.Gen.Kernel.Frame
import proofs.«150907_j26920855011914_1_alg».proof.Proof.Gen.KernelIdeal
import proofs.«150907_j26920855011914_1_alg».proof.Proof.Gen.KernelIdeal.Skeleton
import proofs.«150907_j26920855011914_1_alg».proof.Proof.Gen.KernelIdeal.Launch
import proofs.«150907_j26920855011914_1_alg».proof.Proof.Gen.KernelIdeal.Points
import proofs.«150907_j26920855011914_1_alg».proof.Proof.Gen.KernelIdeal.Frame
import proofs.«150907_j26920855011914_1_alg».proof.Proof.Gen.ReferenceIdeal
import proofs.«150907_j26920855011914_1_alg».proof.Proof.Gen.Pre_finite_inputs
import proofs.«150907_j26920855011914_1_alg».proof.Proof.Gen.ReferenceIdeal.Run
import proofs.«150907_j26920855011914_1_alg».proof.Proof.Gen.ReferenceIdeal.Read
import proofs.«150907_j26920855011914_1_alg».proof.Proof.KernelRun
import proofs.«150907_j26920855011914_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- No operation was rewritten: the idealized kernel is the kernel's text read on the extended reals. -/
theorem preserves : Cert.preserves_Kernel_KernelIdeal := trivial

/-- From memories agreeing on the six arguments both programs end with the hidden array's first 511 time steps and its
    last time step: the kernel by its run read through the blocks and the unflattening, the reference by its run read
    entry by entry. -/
theorem algebraic : Cert.algebraic_KernelIdeal_ReferenceIdeal := by
  intro m ρ m' ρ' _ hagree
  refine ⟨fun c => Cert.KernelIdeal.Result.out8 m c, fun c => Cert.KernelIdeal.Result.out11 m c,
    Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v40_eq, Cert.ReferenceIdeal.Entry.result40,
      (hagree c).1, (hagree c).2.1, (hagree c).2.2.1, (hagree c).2.2.2.1, (hagree c).2.2.2.2.1, (hagree c).2.2.2.2.2]
    rfl
  · rw [Cert.ReferenceIdeal.Read.val_main_v43_eq, Cert.ReferenceIdeal.Entry.result43,
      (hagree c).1, (hagree c).2.1, (hagree c).2.2.1, (hagree c).2.2.2.1, (hagree c).2.2.2.2.1, (hagree c).2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
